-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4x4096x1024 .f32) (main_arg1 : FVec F S4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4x4096x1024 : Shape := ⟨3, ![4, 4096, 1024]⟩
abbrev S4096x1024 : Shape := ⟨2, ![4096, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | .local _ .vmem, ⟨4, _⟩ => ⟨S4x256x1024, .f32⟩
  | .local _ .vmem, ⟨5, _⟩ => ⟨S4x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x256x1024_S4x256x1024_0_0_0 : ∀ a, (![0, 0, 0] : Fin 3 → Nat) a + S4x256x1024.size a ≤ S4x256x1024.size a
  h_S4x256x1024 : 0 < S4x256x1024.numel
  inb_S256x1024_S256x1024_0_0 : ∀ a, (![0, 0] : Fin 2 → Nat) a + S256x1024.size a ≤ S256x1024.size a
  h_S256x1024 : 0 < S256x1024.numel
  shapeCasts_S256x1024_S1x256x1024 : S256x1024.ShapeCasts S1x256x1024
  broadcasts_S1x256x1024_S4x256x1024 : S1x256x1024.Broadcasts S4x256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x4096x1024.size a
  hwx0_0 : ∀ i : grid0.Coords, EltTy.bits .f32 = 32 ∨ (Rect.block (s := S4x4096x1024) S4x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1024.size a ≤ S4x4096x1024.size a
  hwx0_2 : ∀ i : grid0.Coords, EltTy.bits .f32 = 32 ∨ (Rect.block (s := S4x4096x1024) S4x256x1024.size (cc0_transform_2 i) (hinb0_2 i)).WholeWords (EltTy.packing .f32)

variable [Facts₀]

abbrev win0_0 : Pipeline.Window sig grid0 :=
  Pipeline.Window.ofSpec (Memref.whole main_arg0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1024, .f32⟩
  | .hbm, ⟨24, _⟩ => ⟨S4x4096x1024, .i1⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  gather_S4096x1024_S4x4096x1_S4x4096x1024_2_0_n_n_0_2_11024_wf : GatherDims.WF S4096x1024 S4x4096x1 S4x4096x1024 [2] [0] [] [0] [] 2 ![1, 1024]

variable [Facts₀]

def gather_S4096x1024_S4x4096x1_S4x4096x1024_2_0_n_n_0_2_11024 : GatherDims S4096x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S4096x1024_S4x4096x1_S4x4096x1024_2_0_n_n_0_2_11024_wf

class Facts : Prop extends Facts₀ where

variable [Facts]
-- ==== Proof.Spec.lean ====
/-
  The function both programs compute. A batch of sequences `x : [4, 4096, 1024]` and a table of learned position
  vectors `p : [4096, 1024]`: entry `(b, l, d)` of the result is `x[b, l, d] + p[l, d]` — position `l` of every
  sequence in the batch receives row `l` of the table. Stated for any reading of the floats; nothing here depends
  on the addition's laws.
-/
import Idealize.ShloMosaic.PureOps
import Idealize.ShloMosaic.Lib.ValueIdx

noncomputable section

namespace Cert.PosEnc

open Idealize.ShloMosaic

variable {F : FTy → Type} [FloatOps F]

/-- The batch of sequences' shape and the table's. -/
abbrev SX : Shape := ⟨3, ![4, 4096, 1024]⟩
abbrev SP : Shape := ⟨2, ![4096, 1024]⟩

/-- The table entry an entry `(b, l, d)` of the batch meets: row `l`, column `d`. -/
abbrev rowOf (i : SX.Idx) : SP.Idx := fun a => match a with
  | ⟨0, _⟩ => ⟨(i 1).val, by have h : (i 1).val < 4096 := (i 1).isLt; show (i 1).val < 4096; omega⟩
  | ⟨1, _⟩ => ⟨(i 2).val, by have h : (i 2).val < 1024 := (i 2).isLt; show (i 2).val < 1024; omega⟩

/-- `x[b, l, d] + p[l, d]`. -/
def withPositions (x : SX.Idx → Elt F .f32) (p : SP.Idx → Elt F .f32) : SX.Idx → Elt F .f32 :=
  fun i => FloatOps.addf (x i) (p (rowOf i))

theorem withPositions_apply (x : SX.Idx → Elt F .f32) (p : SP.Idx → Elt F .f32) (i : SX.Idx) :
    withPositions x p i = FloatOps.addf (x i) (p (rowOf i)) := rfl

end Cert.PosEnc

end
-- ==== Proof.KernelValue.lean ====
/-
  The kernel's result array as one function of its arguments. The grid has 16 points; point `t` holds rows
  `256·t … 256·t + 255` of every sequence (a `[4, 256, 1024]` block of `x`) and the same rows of the table (a
  `[256, 1024]` block), adds the table block to each of the four sequences' blocks, and writes the sum back as the
  same rows of the result. The generated value leg already says what one point leaves in its block, index by index
  (`canon2_eq`: entry `(b, r, d)` of the block is the first block at `(b, r, d)` plus the second at `(r, d)`). Here:
  that block is the block of `withPositions x p` (the three windows move together along the rows), the sixteen blocks
  cover the array (row `l` lies in block `l / 256`), hence the array after the run is `withPositions x p`.
-/
import proofs.«162969_g32117765440063_cont_8to1_b_1464_2_alg».proof.Proof.Gen.KernelIdeal.Value
import proofs.«162969_g32117765440063_cont_8to1_b_1464_2_alg».proof.Proof.Spec

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Cert.PosEnc (withPositions rowOf)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- Where the three windows' blocks sit at grid point `t`: the sequences' block and the result's at block row `t`
    (whole batch, whole width), the table's at block row `t` (whole width). Decided over the sixteen points. -/
theorem block_index : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (1 : Fin 3)
    ∧ win0_1.index t (1 : Fin 2) = win0_2.index t (2 : Fin 3)
    ∧ win0_2.index t (0 : Fin 3) = 0
    ∧ win0_2.index t (1 : Fin 3) = t.val
    ∧ win0_2.index t (2 : Fin 3) = 0 :=
  (by decide +kernel : ∀ t : Fin grid0.N, _)

/-- What a point leaves in the result's staging block, as the generated index-by-index function of its two input
    blocks: the one store covers the block, and the loads read the whole blocks. -/
theorem left_in_block (x0 : Vec F S4x256x1024 .f32) (x1 : Vec F S256x1024 .f32) : out0_2 x0 x1 = E2 x0 x1 := by
  unfold out0_2
  rw [View.ld_unit_zero (S := S4x256x1024) zero3, View.ld_unit_zero (S := S256x1024) zero2]
  exact funext fun y => canon2_eq x0 x1 y

/-- WHAT POINT `t` WRITES BACK is block `t` of `withPositions x p`: entry `(b, r, d)` of the block is
    `x[b, 256·t + r, d] + p[256·t + r, d]`, the sequences' block and the table's block read at the same rows the
    result's block names. -/
theorem flushed_eq (c : Dev nD) (t : Fin cfg0.N) :
    (dats m 0 c).flushed 2 t
      = ((cfg0.win 2).blk t).view.read (Elt F) (withPositions (V m c main_arg0) (V m c main_arg1)) := by
  show (cfg0.win 2).cut (grid0.coords t) ((dats m 0 c).after 2 t) = _
  rw [after0_2, left_in_block]
  obtain ⟨e0, e1, e2, e3, e4, e5, e6, e7⟩ := block_index t
  funext j
  show FloatOps.addf (V m c main_arg0 (((cfg0.win 0).blk t).view.emb (ix2_0 j))) (V m c main_arg1 (((cfg0.win 1).blk t).view.emb (ix2_1 j)))
    = FloatOps.addf (V m c main_arg0 (((cfg0.win 2).blk t).view.emb j)) (V m c main_arg1 (rowOf (((cfg0.win 2).blk t).view.emb j)))
  have h0 : ((cfg0.win 0).blk t).view.emb (ix2_0 j) = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 1024 + 1 * (j 2).val = win0_2.index t (2 : Fin 3) * 1024 + 1 * (j 2).val; omega
  have h1 : ((cfg0.win 1).blk t).view.emb (ix2_1 j) = rowOf (((cfg0.win 2).blk t).view.emb j) := by
    funext a; apply Fin.ext
    match a with
    | ⟨0, _⟩ => show win0_1.index t (0 : Fin 2) * 256 + 1 * (j 1).val = win0_2.index t (1 : Fin 3) * 256 + 1 * (j 1).val; omega
    | ⟨1, _⟩ => show win0_1.index t (1 : Fin 2) * 1024 + 1 * (j 2).val = win0_2.index t (2 : Fin 3) * 1024 + 1 * (j 2).val; omega
  rw [h0, h1]

/-- An index of the result array is in point `t`'s block iff each coordinate is in the block's range on its axis. -/
theorem mem_blk (t : Fin cfg0.N) (i : S4x4096x1024.Idx) :
    i ∈ ((cfg0.win 2).blk t).view.set ↔ ∀ a : Fin 3, win0_2.index t a * S4x256x1024.size a ≤ (i a).val ∧ (i a).val < win0_2.index t a * S4x256x1024.size a + S4x256x1024.size a := by
  show i ∈ ((View.whole main_v0).slice (win0_2.rect t)).set ↔ _
  rw [View.set_slice_whole, Rect.mem_set_unit]
  exact Iff.rfl

/-- THE BLOCKS COVER THE ARRAY: entry `(b, l, d)` lies in the block of point `l / 256`. -/
theorem covered (i : S4x4096x1024.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  have hN : cfg0.N = 16 := N_0
  let t : Fin cfg0.N := ⟨(i 1).val / 256, by rw [hN]; omega⟩
  obtain ⟨e0, e1, e2, e3, e4, e5, e6, e7⟩ := block_index t
  have e6' : win0_2.index t (1 : Fin 3) = (i 1).val / 256 := e6
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE ARRAY after the run is `withPositions` of the two argument arrays. -/
theorem final (c : Dev nD) :
    (dats m 0 c).arrAt 2 cfg0.N
      = withPositions (m ((c : Thread nD τ).loc main_arg0)) (m ((c : Thread nD τ).loc main_arg1)) :=
  (dats m 0 c).arrAt_eq_of_cover 2 (withPositions (V m c main_arg0) (V m c main_arg1))
    (fun t _ => flushed_eq m c t) covered

/-- The kernel's run: the result array ends at `withPositions x p`, the arguments unchanged. -/
theorem run : θ_run defs (onTc (τ := τ) (main (F := F))) ⟨m, fun _ => 0, ρ⟩ fun r => ∀ c : Dev nD,
      r.2.mem ((c : Thread nD τ).loc main_v0)
        = withPositions (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefRun.lean ====
/-
  The reference program's run, read back. `reference` is a straight line of host operations once its two calls are
  written out where they stand: `jnp.arange` and its two broadcasts (the positions `0 … 4095` of every sequence),
  then `jnp.take`'s body — the index normalisation (a negative index wraps by the table's length; inside it
  `jnp.where`'s one `select`), the in-range test (`0 ≤ idx ≤ 4095`, and-reduced over the index vector's one
  component), the row gather, and the `select` that would put a NaN where an index were out of range — and the
  final addition to `x`. Twenty-seven operations; every weakly fair execution runs them in order and ends with each
  buffer at the fold of the operations' results over the launch contents.
-/
import proofs.«162969_g32117765440063_cont_8to1_b_1464_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out: three of @main's own, `_take`'s twenty-three over the
    buffers of `main_call0` (the seventh of them `_where`'s `select`, into `main_call0.call0`'s buffer), and the
    addition. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_v1 main_v2 (broadcastInDim S4x4096 ![0, 1] bcast_S1x4096_S4x4096_0_1 : (⟨S1x4096, .i32⟩ : BufTy).Contents (Elt F) → (⟨S4x4096, .i32⟩ : BufTy).Contents (Elt F)),
    TRef.nullary main_call0.c (constantI S_ 32 0#32),
    TRef.unary main_call0.c main_call0.v0 (broadcastInDim S4x4096 ![] bcast_S_S4x4096),
    TRef.binary (.of main_v2) main_call0.v0 main_call0.v1 (cmpi .slt),
    TRef.nullary main_call0.c_0 (constantI S_ 32 4096#32),
    TRef.unary main_call0.c_0 main_call0.v2 (broadcastInDim S4x4096 ![] bcast_S_S4x4096),
    TRef.binary (.of main_v2) main_call0.v2 main_call0.v3 addi,
    TRef.ternary main_call0.v1 main_call0.v3 (.of main_v2) main_call0.call0.v0 select,
    TRef.unary main_call0.call0.v0 main_call0.v5 (broadcastInDim S4x4096x1 ![0, 1] bcast_S4x4096_S4x4096x1_0_1),
    TRef.nullary main_call0.c_1 (constantI S1 32 4095#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg1) main_call0.v5 main_call0.v13 (fun x i => Host.gather gather_S4096x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select,
    binary main_arg0 main_v3 main_v4 (addf : (⟨S4x4096x1024, .f32⟩ : BufTy).Contents (Elt F) → (⟨S4x4096x1024, .f32⟩ : BufTy).Contents (Elt F) → (⟨S4x4096x1024, .f32⟩ : BufTy).Contents (Elt F)) ]

set_option maxRecDepth 1024 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..⟩

/-- From any memory with zero counters, for any reading of the floats: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefStages.lean ====
/-
  The reference's value, stage by stage and then at an index. The positions handed to `jnp.take` are the dense
  range: entry `(b, l)` of the index array is the word `l`, `0 ≤ l < 4096`. Such a word is not negative, so the
  normalisation keeps it; it passes the range test `0 ≤ l ≤ 4095`, so the mask is 1 everywhere and the NaN filler is
  never chosen; and the gather, which reads the index signed and clamps it into `[0, 4095]`, reads table row `l`
  itself. Hence entry `(b, l, d)` of the looked-up array is `p[l, d]`, and the reference's result is
  `withPositions x p`.
-/
import proofs.«162969_g32117765440063_cont_8to1_b_1464_2_alg».proof.Proof.Gen.ReferenceIdeal
import proofs.«162969_g32117765440063_cont_8to1_b_1464_2_alg».proof.Proof.Spec
import Idealize.ShloMosaic.Lib.ValueIdx
import Idealize.ShloMosaic.Lib.Affine
import Idealize.ShloMosaic.PureOps.Reduce

noncomputable section

namespace Cert.ReferenceIdeal.Stages

open Cert.ReferenceIdeal Cert.ReferenceIdeal.Gen Idealize.ShloMosaic Idealize.ShloMosaic.ValueIdx
open Cert.PosEnc (withPositions rowOf)

variable {F : FTy → Type} [FloatOps F]

/-! ## The stages -/

/-- `jnp.arange(4096)` broadcast over the batch: entry `(b, l)` is the word `l`. -/
def positions : IVec S4x4096 32 :=
  broadcastInDim S4x4096 ![0, 1] bcast_S1x4096_S4x4096_0_1
    (broadcastInDim S1x4096 ![1] bcast_S4096_S1x4096_1 (iotaInDim S4096 32 0))

/-- `jnp.take`'s index normalisation — a negative index wraps by the table's length — and the index vector's axis
    appended: `[4, 4096, 1]`. -/
def wrapped (idx : IVec S4x4096 32) : IVec S4x4096x1 32 :=
  broadcastInDim S4x4096x1 ![0, 1] bcast_S4x4096_S4x4096x1_0_1
    (select (cmpi .slt idx (broadcastInDim S4x4096 ![] bcast_S_S4x4096 (constantI S_ 32 0#32)))
      (addi idx (broadcastInDim S4x4096 ![] bcast_S_S4x4096 (constantI S_ 32 4096#32))) idx)

/-- The per-component range test `0 ≤ w ≤ 4095`. -/
def inBounds (w : IVec S4x4096x1 32) : IVec S4x4096x1 1 :=
  andi (cmpi .sge w (broadcastInDim S4x4096x1 ![] bcast_S_S4x4096x1 (constantI S_ 32 0#32)))
    (cmpi .sle w (broadcastInDim S4x4096x1 ![0, 1, 2] bcast_S1x1x1_S4x4096x1_0_1_2
      (broadcastInDim S1x1x1 ![2] bcast_S1_S1x1x1_2 (constantI S1 32 4095#32))))

/-- The mask of in-range lookups: the range test and-reduced over the index vector's components, spread along the
    table's width. -/
def inRange (w : IVec S4x4096x1 32) : IVec S4x4096x1024 1 :=
  broadcastInDim S4x4096x1024 ![0, 1] bcast_S4x4096_S4x4096x1024_0_1
    (Host.reduce IntOp.andi (inBounds w) (constantI S_ 1 1#1) reducesTo_S4x4096x1_S4x4096_d2 h_S_)

/-- `jnp.take(p, idx, axis=0)` in its default mode: the gathered rows where the index is in range, NaN elsewhere. -/
def taken (p : FVec F S4096x1024 .f32) (idx : IVec S4x4096 32) : FVec F S4x4096x1024 .f32 :=
  select (inRange (wrapped idx))
    (Host.gather gather_S4096x1024_S4x4096x1_S4x4096x1024_2_0_n_n_0_2_11024 p (wrapped idx))
    (broadcastInDim S4x4096x1024 ![] bcast_S_S4x4096x1024 (constant S_ .f32 0x7FC00000#32))

/-- The reference's result: `x` plus the rows looked up at the dense positions. -/
def result (x : FVec F S4x4096x1024 .f32) (p : FVec F S4096x1024 .f32) : FVec F S4x4096x1024 .f32 :=
  addf x (taken p positions)

/-! ## Words below 4096 -/

/-- A natural number below 4096 as a 32-bit word, read signed, is itself. -/
theorem toInt_small (n : Nat) (h : n < 4096) : (BitVec.ofNat 32 n).toInt = (n : Int) := by
  rw [BitVec.toInt_eq_toNat_cond, BitVec.toNat_ofNat, Nat.mod_eq_of_lt (by omega)]
  split <;> omega

theorem zero_toInt : (0#32 : BitVec 32).toInt = 0 := by decide
theorem last_toInt : (4095#32 : BitVec 32).toInt = 4095 := by decide

theorem not_negative (n : Nat) (h : n < 4096) : IntOp.cmpi .slt (BitVec.ofNat 32 n) 0#32 = 0#1 :=
  eq_zero_of_ne_one fun e => by
    have := IntOp.cmpi_slt.1 e
    rw [toInt_small n h, zero_toInt] at this
    omega

theorem at_least_zero (n : Nat) (h : n < 4096) : IntOp.cmpi .sge (BitVec.ofNat 32 n) 0#32 = 1#1 :=
  IntOp.cmpi_sge.2 (by rw [toInt_small n h, zero_toInt]; omega)

theorem at_most_last (n : Nat) (h : n < 4096) : IntOp.cmpi .sle (BitVec.ofNat 32 n) 4095#32 = 1#1 :=
  IntOp.cmpi_sle.2 (by rw [toInt_small n h, last_toInt]; omega)

/-- An and-fold from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-! ## The stages at an index -/

/-- Entry `(b, l)` of the positions is the word `l`. -/
theorem positions_apply (j : S4x4096.Idx) : positions j = BitVec.ofNat 32 (j 1).val := rfl

/-- The normalisation keeps the dense positions: entry `(b, l, 0)` is still the word `l`. -/
theorem wrapped_positions (k : S4x4096x1.Idx) : wrapped positions k = BitVec.ofNat 32 (k 1).val := by
  have h : (k 1).val < 4096 := (k 1).isLt
  show Scalar.select (IntOp.cmpi .slt (BitVec.ofNat 32 (k 1).val) 0#32)
    (IntOp.addi (BitVec.ofNat 32 (k 1).val) 4096#32) (BitVec.ofNat 32 (k 1).val) = _
  rw [not_negative _ h]
  exact select_zero _ _

/-- Every dense position passes the range test. -/
theorem inBounds_positions (k : S4x4096x1.Idx) : inBounds (wrapped positions) k = 1#1 := by
  have h : (k 1).val < 4096 := (k 1).isLt
  show IntOp.andi (IntOp.cmpi .sge (wrapped positions k) 0#32) (IntOp.cmpi .sle (wrapped positions k) 4095#32) = 1#1
  rw [wrapped_positions k, at_least_zero _ h, at_most_last _ h]
  decide

/-- An and-reduce from 1 of an array of ones is 1 at every index. -/
theorem reduce_ones (v : IVec S4x4096x1 1) (hv : ∀ k, v k = 1#1) (j : S4x4096.Idx) :
    Host.reduce IntOp.andi v (constantI S_ 1 1#1) reducesTo_S4x4096x1_S4x4096_d2 h_S_ j = 1#1 := by
  rw [Host.reduce_eq_foldl]
  exact foldl_andi_ones v hv _

/-- So the mask is 1 everywhere. -/
theorem inRange_positions (i : S4x4096x1024.Idx) : inRange (wrapped positions) i = 1#1 := by
  unfold inRange broadcastInDim
  exact reduce_ones _ inBounds_positions _

/-- The index-vector entry `(b, l, 0)` under a result entry `(b, l, d)`. -/
abbrev colOf (y : S4x4096x1024.Idx) : S4x4096x1.Idx := fun a => match a with
  | ⟨0, _⟩ => ⟨(y 0).val, by have h : (y 0).val < 4 := (y 0).isLt; show (y 0).val < 4; omega⟩
  | ⟨1, _⟩ => ⟨(y 1).val, by have h : (y 1).val < 4096 := (y 1).isLt; show (y 1).val < 4096; omega⟩
  | ⟨2, _⟩ => ⟨0, by show 0 < 1; omega⟩

/-- THE ROW GATHER READ AT `(b, l, d)`: the table at the row the index `idx[b, l, 0]` names — read signed and clamped
    into `[0, 4095]` — and column `d`. -/
theorem gather_rows_apply {α : Type} (x : S4096x1024.Idx → α) (idx : IVec S4x4096x1 32) (y : S4x4096x1024.Idx) :
    Host.gather gather_S4096x1024_S4x4096x1_S4x4096x1024_2_0_n_n_0_2_11024 x idx y
      = x (fun a => match a with
        | ⟨0, _⟩ => ⟨min (idx (colOf y)).toInt.toNat 4095, by show min _ 4095 < 4096; omega⟩
        | ⟨1, _⟩ => ⟨(y 2).val, by have h : (y 2).val < 1024 := (y 2).isLt; show (y 2).val < 1024; omega⟩) := by
  unfold Host.gather
  refine congrArg x (funext fun a => Fin.ext ?_)
  match a with
  | ⟨0, _⟩ =>
    show gather_S4096x1024_S4x4096x1_S4x4096x1024_2_0_n_n_0_2_11024.start y idx 0
      + gather_S4096x1024_S4x4096x1_S4x4096x1024_2_0_n_n_0_2_11024.batchCoord y 0
      + gather_S4096x1024_S4x4096x1_S4x4096x1024_2_0_n_n_0_2_11024.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x1024_S4x4096x1_S4x4096x1024_2_0_n_n_0_2_11024.startIndexMap from List.mem_singleton.mpr rfl)]
    have hsi : gather_S4096x1024_S4x4096x1_S4x4096x1024_2_0_n_n_0_2_11024.siIdx y
        ⟨List.idxOf (0 : Fin 2) gather_S4096x1024_S4x4096x1_S4x4096x1024_2_0_n_n_0_2_11024.startIndexMap,
          List.idxOf_lt_length_iff.2 (List.mem_singleton.mpr rfl)⟩ = colOf y := by
      funext b; refine Fin.ext ?_
      match b with
      | ⟨0, _⟩ => rfl
      | ⟨1, _⟩ => rfl
      | ⟨2, _⟩ => rfl
    rw [hsi]
    rfl
  | ⟨1, _⟩ =>
    show gather_S4096x1024_S4x4096x1_S4x4096x1024_2_0_n_n_0_2_11024.start y idx 1
      + gather_S4096x1024_S4x4096x1_S4x4096x1024_2_0_n_n_0_2_11024.batchCoord y 1
      + gather_S4096x1024_S4x4096x1_S4x4096x1024_2_0_n_n_0_2_11024.offCoord y 1 = (y 2).val
    rw [GatherDims.batchCoord_eq_zero _ _ _ List.not_mem_nil]
    unfold GatherDims.start
    rw [dif_neg (show (1 : Fin 2) ∉ gather_S4096x1024_S4x4096x1_S4x4096x1024_2_0_n_n_0_2_11024.startIndexMap from by decide)]
    simp only [Nat.add_zero, Nat.zero_add]
    rfl

/-- ENTRY `(b, l, d)` OF THE LOOKED-UP ARRAY is `p[l, d]`. -/
theorem taken_positions_apply (p : FVec F S4096x1024 .f32) (i : S4x4096x1024.Idx) :
    taken p positions i = p (rowOf i) := by
  have h : (i 1).val < 4096 := (i 1).isLt
  unfold taken
  rw [select_apply, inRange_positions i, select_one, gather_rows_apply]
  refine congrArg p (funext fun a => Fin.ext ?_)
  match a with
  | ⟨0, _⟩ =>
    show min (wrapped positions (colOf i)).toInt.toNat 4095 = (i 1).val
    rw [wrapped_positions, toInt_small _ h]
    omega
  | ⟨1, _⟩ => rfl

/-- THE REFERENCE'S RESULT is `withPositions x p`. -/
theorem result_eq (x : FVec F S4x4096x1024 .f32) (p : FVec F S4096x1024 .f32) :
    result x p = withPositions x p := by
  funext i
  show FloatOps.addf (x i) (taken p positions i) = FloatOps.addf (x i) (p (rowOf i))
  rw [taken_positions_apply]

end Cert.ReferenceIdeal.Stages

end
-- ==== Proof.RefValue.lean ====
/-
  The reference's run with its result named: the fold of the twenty-seven operations at the result buffer is the
  stages' composition `Stages.result` of the two argument arrays (each operation's result read at its own buffer,
  every other buffer left as it was), which is `withPositions x p`; the argument buffers are written by no
  operation.
-/
import proofs.«162969_g32117765440063_cont_8to1_b_1464_2_alg».proof.Proof.RefRun
import proofs.«162969_g32117765440063_cont_8to1_b_1464_2_alg».proof.Proof.RefStages

noncomputable section

namespace Cert.ReferenceIdeal.Whole

open Cert.ReferenceIdeal Cert.ReferenceIdeal.Gen Cert.ReferenceIdeal.Line Idealize.ShloMosaic Idealize.ShloMosaic.TcCoe Idealize.SL.Sem Idealize.ShloMosaic.StableHlo
open Cert.PosEnc (withPositions)

variable {F : FTy → Type} [FloatOps F]

/-- A value carried into a called function's buffer and read back out of it is the value: the two transports along
    the buffer's type equation cancel. -/
theorem ofBuf_toBuf {Val : EltTy → Type} {T : BufTy} (x : TRef sig T) (v : T.Contents Val) :
    x.ofBuf (x.toBuf v) = v := by
  unfold TRef.ofBuf TRef.toBuf
  simp only [cast_cast, cast_eq]

attribute [local irreducible] Host.reduce Host.gather in
set_option maxHeartbeats 400000 in
/-- The fold at the result buffer is the stages' composition of the arguments' contents: each operation's result read
    at its own buffer, every other buffer left as it was, the transports into and out of the calls' buffers
    cancelled. The reduce and the gather stay folded: the equation never looks inside them. -/
theorem out_eq (V : Valuation τ sig (Elt F)) :
    after ops V (main_v4 : DevRef τ sig)
      = Stages.result (V (main_arg0 : DevRef τ sig)) (V (main_arg1 : DevRef τ sig)) := by
  after_results_simp
  simp only [ofBuf_toBuf]
  rfl

/-- No operation writes the arguments' buffers. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- The reference's run: the result ends at `withPositions x p`, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = withPositions (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v4).trans ((out_eq _).trans (Stages.result_eq _ _)),
        (h c main_arg0).trans (arg0_eq _),
        (h c main_arg1).trans (arg1_eq _)⟩)
    (run_main m ρ)

end Cert.ReferenceIdeal.Whole

end
-- ==== Proof.lean ====
/-
  Learned positional encoding: `out[b, l, :] = x[b, l, :] + p[l, :]` for a batch `x : [4, 4096, 1024]` and a table
  `p : [4096, 1024]`.

  The kernel adds, at each of sixteen grid points, a `[256, 1024]` block of the table to the same rows of all four
  sequences. The reference looks the table up at the dense positions `0 … 4095` through `jnp.take` — index
  normalisation, range mask, row gather, NaN filler — and adds the rows found to `x`. Both end holding
  `withPositions x p` (Proof/Spec.lean), entry `(b, l, d) ↦ x[b, l, d] + p[l, d]`: the kernel because its blocks are
  the blocks of that function and cover the array (Proof/KernelValue.lean), the reference because a dense position
  is never negative, always in range, and clamps to itself (Proof/RefStages.lean, over the run of
  Proof/RefRun.lean and Proof/RefValue.lean). No law of the extended reals' addition is used — the two sides are the
  same sum, entry by entry — so the inputs' finiteness is never opened. The idealization rewrote nothing, so there
  is nothing to preserve.
-/
import proofs.«162969_g32117765440063_cont_8to1_b_1464_2_alg».proof.Defs
import proofs.«162969_g32117765440063_cont_8to1_b_1464_2_alg».proof.Proof.Gen.Kernel
import proofs.«162969_g32117765440063_cont_8to1_b_1464_2_alg».proof.Proof.Gen.Kernel.Frame
import proofs.«162969_g32117765440063_cont_8to1_b_1464_2_alg».proof.Proof.Gen.KernelIdeal
import proofs.«162969_g32117765440063_cont_8to1_b_1464_2_alg».proof.Proof.Gen.KernelIdeal.Frame
import proofs.«162969_g32117765440063_cont_8to1_b_1464_2_alg».proof.Proof.Gen.KernelIdeal.Value
import proofs.«162969_g32117765440063_cont_8to1_b_1464_2_alg».proof.Proof.Gen.ReferenceIdeal
import proofs.«162969_g32117765440063_cont_8to1_b_1464_2_alg».proof.Proof.Gen.Pre_finite_inputs
import proofs.«162969_g32117765440063_cont_8to1_b_1464_2_alg».proof.Proof.KernelValue
import proofs.«162969_g32117765440063_cont_8to1_b_1464_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Whole.run (F := Ideal) m ρ)

/-- From memories agreeing on `x` and `p`, both programs end with `withPositions x p` in their result. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Whole.run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
